-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S1600000x128 .f32) (main_arg2 : IVec S2x1600000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 29
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S1600000x1, .i32⟩
  | .hbm, ⟨16, _⟩ => ⟨S100000x128, .f32⟩
  | .hbm, ⟨17, _⟩ => ⟨S128x128, .f32⟩
  | .hbm, ⟨18, _⟩ => ⟨S128x128, .bf16⟩
  | .hbm, ⟨19, _⟩ => ⟨S128x128, .f32⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  slices_S256x128_S128x128_0_0 : S256x128.Slices ![0, 0] S128x128
  bitsLt_bf16_f32 : FTy.bits .bf16 < FTy.bits .f32
  slices_S256x128_S128x128_128_0 : S256x128.Slices ![128, 0] S128x128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x256 : Shape := ⟨2, ![100000, 256]⟩
abbrev S1x128 : Shape := ⟨2, ![1, 128]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S1600000x1, .i32⟩
  | .hbm, ⟨16, _⟩ => ⟨S100000x128, .f32⟩
  | .hbm, ⟨17, _⟩ => ⟨S100000x256, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowMath.lean ====
/-
  One node's update, as a function of that node's two feature rows and of the weights, on the extended reals.

  A node's row `x` (its own 128 features) and row `e` (the sum of its incoming edges' 128 features) go through a
  three-layer perceptron and a layer normalisation:

    h0 = relu (x · Wa + e · Wb + b0)      (the first layer's 256 × 128 weight split in its upper and lower halves)
    h1 = relu (h0 · W1 + b1)
    o  = h1 · W2 + b2
    result j = (o j − mean o) · rsqrt (mean ((o − mean o)²) + ε) · g j + b j

  where `mean v = (∑ j, v j) / 128`, `relu v j = max (v j) 0`, and ε is the f32 word `0x3727C5AC`.  The float words are
  kept as words (the same word reads as the same extended real wherever it is written); nothing here evaluates one.

  The one law the comparison of a blocked evaluation with a concatenated one needs is here too: a sum over 256
  coordinates is the sum over the first 128 plus the sum over the last 128.  It holds in every commutative additive
  monoid, so at the infinities as well.
-/
import Idealize.ShloMosaic.PureOps.Ideal
import Idealize.ShloMosaic.Lib.ValueIdx
import Mathlib.Algebra.BigOperators.Fin

noncomputable section

open scoped BigOperators

namespace Cert.RowMath

open Idealize.ShloMosaic Idealize.ShloMosaic.ValueIdx

/-- A row of 128 features. -/
abbrev Row := Fin 128 → EReal
/-- A 128 × 128 weight, entry `(k, j)` multiplying input feature `k` into output feature `j`. -/
abbrev Mat := Fin 128 → Fin 128 → EReal

/-- The row `x · W`. -/
def dotRow (x : Row) (W : Mat) : Row := fun j => ∑ k, x k * W k j

/-- `max · 0`, feature by feature, the zero written as its f32 word. -/
def relu (v : Row) : Row := fun j => max (v j) (Ideal.ofBits .f32 0x00000000#32)

/-- The first hidden row: both input rows through their halves of the first weight, the bias, the relu. -/
def hidden0 (x e : Row) (Wa Wb : Mat) (b0 : Row) : Row := relu fun j => dotRow x Wa j + dotRow e Wb j + b0 j

/-- A hidden layer: weight, bias, relu. -/
def hidden1 (h : Row) (W1 : Mat) (b1 : Row) : Row := relu fun j => dotRow h W1 j + b1 j

/-- The output layer: weight and bias. -/
def outRow (h : Row) (W2 : Mat) (b2 : Row) : Row := fun j => dotRow h W2 j + b2 j

/-- The mean of a row: its sum divided by the f32 word of 128. -/
def mean (v : Row) : EReal := Ideal.div (∑ j, v j) (Ideal.ofBits .f32 0x43000000#32)

/-- A row less its mean. -/
def centred (o : Row) : Row := fun j => o j - mean o

/-- The mean of the squares of the centred row. -/
def variance (o : Row) : EReal := mean fun j => centred o j * centred o j

/-- Layer normalisation with gain `g` and bias `b`. -/
def layerNorm (o g b : Row) : Row := fun j =>
  centred o j * Ideal.rsqrt (variance o + Ideal.ofBits .f32 0x3727C5AC#32) * g j + b j

/-- The whole update of one node. -/
def nodeRow (x e : Row) (Wa Wb : Mat) (b0 : Row) (W1 : Mat) (b1 : Row) (W2 : Mat) (b2 g b : Row) : Row :=
  layerNorm (outRow (hidden1 (hidden0 x e Wa Wb b0) W1 b1) W2 b2) g b

/-- Row `p` of an `n × 128` array. -/
def rowOf {n : ℕ} (A : (⟨2, ![n, 128]⟩ : Shape).Idx → EReal) (p : Fin n) : Row := fun k => A (ix2 p k)

/-- A 128 × 128 array as a weight. -/
def matOf (W : (⟨2, ![128, 128]⟩ : Shape).Idx → EReal) : Mat := fun k j => W (ix2 k j)

/-- The one row of a `1 × 128` array. -/
def vecOf (b : (⟨2, ![1, 128]⟩ : Shape).Idx → EReal) : Row := fun j => b (ix2 (0 : Fin 1) j)

/-- Coordinate `k` of the first half of 256 coordinates. -/
def lo (k : Fin 128) : Fin 256 := ⟨k.val, by omega⟩
/-- Coordinate `k` of the second half. -/
def hi (k : Fin 128) : Fin 256 := ⟨128 + k.val, by omega⟩

@[simp] theorem lo_val (k : Fin 128) : (lo k).val = k.val := rfl
@[simp] theorem hi_val (k : Fin 128) : (hi k).val = 128 + k.val := rfl

/-- A sum over 256 coordinates is the sum over the first half plus the sum over the second half. -/
theorem sum_halves {M : Type*} [AddCommMonoid M] (f : Fin 256 → M) :
    ∑ k : Fin 256, f k = ∑ k : Fin 128, f (lo k) + ∑ k : Fin 128, f (hi k) := by
  have h := Fin.sum_univ_add (a := 128) (b := 128) (fun i : Fin (128 + 128) => f i)
  exact h

/-- The upper half (rows 0 … 127) of a 256 × 128 weight. -/
def matLo (W : (⟨2, ![256, 128]⟩ : Shape).Idx → EReal) : Mat := fun k j => W (ix2 (lo k) j)

/-- The lower half (rows 128 … 255) of a 256 × 128 weight. -/
def matHi (W : (⟨2, ![256, 128]⟩ : Shape).Idx → EReal) : Mat := fun k j => W (ix2 (hi k) j)

/-- A length-128 array as a row. -/
def rowOf1 (b : (⟨1, ![128]⟩ : Shape).Idx → EReal) : Row := fun j => b (ix1 j)

end Cert.RowMath

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KernelRow.lean ====
/-
  What the kernel's body computes for one row of its block.

  The body loads a 5000 × 128 block of node rows and one of aggregated edge rows, the four weights (as 128 × 128
  blocks), the five 1 × 128 rows (three biases, gain, shift), and stores one 5000 × 128 block.  Read at row `p`,
  column `j`, the stored value is `RowMath.nodeRow` of row `p` of the two loaded blocks: the three matrix products
  contract over the 128 columns of that one row, the bias rows are broadcast down the block, the two lane sums of the
  normalisation run along that one row, and the changes of float format between the layers are the identity on the
  extended reals.
-/
import proofs.«157998_j38345468018711_2_alg».proof.Proof.Gen.KernelIdeal.Skeleton
import proofs.«157998_j38345468018711_2_alg».proof.Proof.RowMath
import proofs.«157998_j38345468018711_2_alg».proof.Proof.LibPlainDot
import proofs.«157998_j38345468018711_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowMath

/-- A product of a 5000 × 128 block with a 128 × 128 weight into the zero block, at `(p, q)`: the sum over the
    128 shared coordinates. -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  PlainDot.matmul_zero_apply 5000 128 128 none a b p q

/-- One layer before its relu: the block narrowed to bf16 (the identity here) times the weight, plus the bias row
    broadcast down the block, at `(p, j)`. -/
theorem layer_apply (h : FVec Ideal S5000x128 .f32) (W : FVec Ideal S128x128 .bf16) (b : FVec Ideal S1x128 .f32)
    (hlt : FTy.bits .bf16 < FTy.bits .f32) (hb : S1x128.Broadcasts S5000x128) (p : Fin 5000) (j : Fin 128) :
    (addf (matmul dot_S5000x128_S128x128_S5000x128_1_0_0_1_n_n none (truncf .bf16 h hlt) W (constant S5000x128 .f32 0x00000000#32))
        (broadcastTo S5000x128 b hb)) (ix2 p j)
      = dotRow (rowOf h p) (matOf W) j + vecOf b j := by
  rw [addf_apply, mm_apply, broadcastTo_1b_ab_apply]
  rfl

/-- The first layer before its relu: both blocks through their weights, added, plus the bias row, at `(p, j)`. -/
theorem layer0_apply (x e : FVec Ideal S5000x128 .f32) (Wa Wb : FVec Ideal S128x128 .bf16) (b : FVec Ideal S1x128 .f32)
    (hlt : FTy.bits .bf16 < FTy.bits .f32) (hb : S1x128.Broadcasts S5000x128) (p : Fin 5000) (j : Fin 128) :
    (addf (addf (matmul dot_S5000x128_S128x128_S5000x128_1_0_0_1_n_n none (truncf .bf16 x hlt) Wa (constant S5000x128 .f32 0x00000000#32))
          (matmul dot_S5000x128_S128x128_S5000x128_1_0_0_1_n_n none (truncf .bf16 e hlt) Wb (constant S5000x128 .f32 0x00000000#32)))
        (broadcastTo S5000x128 b hb)) (ix2 p j)
      = dotRow (rowOf x p) (matOf Wa) j + dotRow (rowOf e p) (matOf Wb) j + vecOf b j := by
  rw [addf_apply, addf_apply, mm_apply, mm_apply, broadcastTo_1b_ab_apply]
  rfl

/-- A relu of a block, row by row. -/
theorem relu_row (v : FVec Ideal S5000x128 .f32) (p : Fin 5000) :
    rowOf (maximumf v (broadcast S5000x128 (Scalar.ofBits .f32 0x00000000#32))) p = relu (rowOf v p) := rfl

/-- The three layers: the value the body passes to its normalisation, less the last bias, at `(p, j)`. -/
theorem pay2_apply (P0 P1 : Vec Ideal S5000x128 .f32) (P2 P3 : Vec Ideal S128x128 .bf16) (P4 : Vec Ideal S1x128 .f32)
    (P5 : Vec Ideal S128x128 .bf16) (P6 : Vec Ideal S1x128 .f32) (P7 : Vec Ideal S128x128 .bf16) (p : Fin 5000) (j : Fin 128) :
    k0_pay2 P0 P1 P2 P3 P4 P5 P6 P7 (ix2 p j)
      = dotRow (hidden1 (hidden0 (rowOf P0 p) (rowOf P1 p) (matOf P2) (matOf P3) (vecOf P4)) (matOf P5) (vecOf P6)) (matOf P7) j := by
  unfold k0_pay2
  simp only [shapeCast_self]
  refine (mm_apply (φ₁ := .bf16) (φ₂ := .bf16) _ _ p j).trans ?_
  unfold dotRow
  refine Finset.sum_congr rfl fun k _ => congrArg (· * _) ?_
  rw [truncf_apply, maximumf_apply, broadcast_apply, layer_apply]
  unfold hidden1 relu
  refine congrArg (fun z => max (z + vecOf P6 k) _) ?_
  unfold dotRow
  refine Finset.sum_congr rfl fun k' _ => congrArg (· * _) ?_
  show (maximumf _ _) (ix2 p k') = _
  rw [maximumf_apply, broadcast_apply, layer0_apply]
  rfl

/-- A reciprocal square root of a block, entry by entry. -/
theorem rsqrt_apply {s : Shape} (x : FVec Ideal s .f32) (i : s.Idx) : rsqrt x i = Ideal.rsqrt (x i) := rfl

/-- The mean of row `p` as the body takes it: the lane sum of the row, as a column, over the splat of 128. -/
theorem mean_apply (v : FVec Ideal S5000x128 .f32) (hr : S5000x128.Reduces [1] S5000) (hφ : FKind.Formats .f32)
    (hacc : (0x00000000#32 : BitVec 32) = 0x00000000#32) (hs : S5000.ShapeCasts S5000x1) (p : Fin 5000) (u : Fin 1) :
    (divf (shapeCast S5000x1 (multiReduction .add [1] S5000 v 0x00000000#32 hr hφ hacc) hs)
        (broadcast S5000x1 (Scalar.ofBits .f32 0x43000000#32))) (ix2 p u)
      = mean (rowOf v p) := by
  rw [divf_apply, broadcast_apply, LibKeepdims.shapeCast_a_a1_apply]
  exact congrArg (fun z => Ideal.div z _) (LibKeepdims.rowSum_apply v 0x00000000#32 hr hφ hacc p)

/-- A block less its rows' means (each mean a column broadcast along its row), at `(p, j)`. -/
theorem centred_apply (v : FVec Ideal S5000x128 .f32) (hr : S5000x128.Reduces [1] S5000) (hφ : FKind.Formats .f32)
    (hacc : (0x00000000#32 : BitVec 32) = 0x00000000#32) (hs : S5000.ShapeCasts S5000x1)
    (hb : S5000x1.Broadcasts S5000x128) (p : Fin 5000) (j : Fin 128) :
    (subf v (broadcastTo S5000x128 (divf (shapeCast S5000x1 (multiReduction .add [1] S5000 v 0x00000000#32 hr hφ hacc) hs)
        (broadcast S5000x1 (Scalar.ofBits .f32 0x43000000#32))) hb)) (ix2 p j)
      = centred (rowOf v p) j := by
  rw [subf_apply, LibKeepdims.broadcastTo_a1_ab_apply]
  exact congrArg (fun z => v (ix2 p j) - z) (mean_apply v hr hφ hacc hs p 0)

/-- The normalisation: the last bias added, each row centred, scaled by the reciprocal root of its variance plus ε, then
    gain and shift, at `(p, j)`. -/
theorem pay1_apply (v31 v34 : FVec Ideal S5000x128 .f32) (P9 P10 : Vec Ideal S1x128 .f32) (p : Fin 5000) (j : Fin 128) :
    k0_pay1 v31 v34 P9 P10 (ix2 p j) = layerNorm (rowOf (addf v31 v34) p) (vecOf P9) (vecOf P10) j := by
  unfold k0_pay1
  simp only [shapeCast_self]
  rw [addf_apply, mulf_apply, mulf_apply, centred_apply, broadcastTo_1b_ab_apply, broadcastTo_1b_ab_apply,
    LibKeepdims.broadcastTo_a1_ab_apply, rsqrt_apply, addf_apply, broadcast_apply, mean_apply]
  unfold layerNorm variance
  refine congrArg (fun z => centred _ j * Ideal.rsqrt (mean z + _) * _ + _) (funext fun k => ?_)
  show (mulf _ _) (ix2 p k) = _
  rw [mulf_apply, centred_apply]

/-- THE BODY'S STORED BLOCK at `(p, j)`: `nodeRow` of row `p` of the two loaded blocks and of the weights. -/
theorem payload_apply (P0 P1 : Vec Ideal S5000x128 .f32) (P2 P3 : Vec Ideal S128x128 .bf16) (P4 : Vec Ideal S1x128 .f32)
    (P5 : Vec Ideal S128x128 .bf16) (P6 : Vec Ideal S1x128 .f32) (P7 : Vec Ideal S128x128 .bf16)
    (P8 P9 P10 : Vec Ideal S1x128 .f32) (p : Fin 5000) (j : Fin 128) :
    k0_pay1 (k0_pay2 P0 P1 P2 P3 P4 P5 P6 P7) (k0_pay3 P8) P9 P10 (ix2 p j)
      = nodeRow (rowOf P0 p) (rowOf P1 p) (matOf P2) (matOf P3) (vecOf P4) (matOf P5) (vecOf P6) (matOf P7) (vecOf P8)
          (vecOf P9) (vecOf P10) j := by
  rw [pay1_apply]
  unfold nodeRow
  refine congrArg (fun o => layerNorm o (vecOf P9) (vecOf P10) j) (funext fun k => ?_)
  show (addf _ _) (ix2 p k) = _
  rw [addf_apply, pay2_apply]
  unfold k0_pay3 outRow
  simp only [shapeCast_self]
  rw [broadcastTo_1b_ab_apply]
  rfl

end Cert.KernelIdeal.RowValue

end
-- ==== Proof.KernelBlocks.lean ====
/-
  The blocks a grid point stages, read off their arrays, and the body's block as rows of one whole-array function.

  The grid has 20 points; point `t` stages rows `5000 t … 5000 t + 4999` of the node array and of the aggregated
  edge array, and the whole of each weight, bias, gain and shift array.  The body's block at `(p, j)` is
  `RowMath.nodeRow` of row `p` of the two staged blocks (module KernelRow), and row `p` of a staged block is row
  `5000 t + p` of its array; so the block is the restriction to those rows of ONE function `G` of the arrays,
  `G i = nodeRow (row (i 0) of the two arrays) … (i 1)`.
-/
import proofs.«157998_j38345468018711_2_alg».proof.Proof.Gen.KernelIdeal.Value
import proofs.«157998_j38345468018711_2_alg».proof.Proof.KernelRow
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.RowMath

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- Window 0's array on entry to the region. -/
abbrev A0 (c : Dev nD) : S100000x128.Idx → EReal := V m c main_arg0
/-- Window 1's array on entry to the region. -/
abbrev A1 (c : Dev nD) : S100000x128.Idx → EReal := V m c main_v4
/-- Window 2's array on entry to the region. -/
abbrev A2 (c : Dev nD) : S128x128.Idx → EReal := V m c main_v6
/-- Window 3's array on entry to the region. -/
abbrev A3 (c : Dev nD) : S128x128.Idx → EReal := V m c main_v8
/-- Window 4's array on entry to the region. -/
abbrev A4 (c : Dev nD) : S1x128.Idx → EReal := V m c main_v11
/-- Window 5's array on entry to the region. -/
abbrev A5 (c : Dev nD) : S128x128.Idx → EReal := V m c main_v9
/-- Window 6's array on entry to the region. -/
abbrev A6 (c : Dev nD) : S1x128.Idx → EReal := V m c main_v12
/-- Window 7's array on entry to the region. -/
abbrev A7 (c : Dev nD) : S128x128.Idx → EReal := V m c main_v10
/-- Window 8's array on entry to the region. -/
abbrev A8 (c : Dev nD) : S1x128.Idx → EReal := V m c main_v13
/-- Window 9's array on entry to the region. -/
abbrev A9 (c : Dev nD) : S1x128.Idx → EReal := V m c main_v14
/-- Window 10's array on entry to the region. -/
abbrev A10 (c : Dev nD) : S1x128.Idx → EReal := V m c main_v15

/-! ## The block index of every window at every grid point (decided over the 20 points) -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

theorem idx_const : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Every row range is some point's. -/
theorem idx_onto : ∀ q0 : Fin 20, ∃ t : Fin cfg0.N, win0_11.index t = ![q0.val, 0] :=
  (by decide +kernel : ∀ q0 : Fin 20, ∃ t : Fin grid0.N, win0_11.index t = ![q0.val, 0])

/-! ## The staged blocks, read off their arrays -/

/-- Row `p` of the node block at point `t` is row `5000 t + p` of the node array. -/
theorem iblk0_apply (c : Dev nD) (t : Fin cfg0.N) (p : Fin 5000) (k : Fin 128) (r : Fin 100000) (hr : r.val = 5000 * t.val + p.val) :
    (iblk m c 0 t : Vec Ideal S5000x128 .f32) (ix2 p k) = A0 m c (ix2 r k) := by
  obtain ⟨e0, e1, -⟩ := idx_facts t
  unfold iblk
  rw [View.read_apply]
  show V m c main_arg0 _ = V m c main_arg0 _
  refine congrArg (V m c main_arg0 : S100000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of window 1's block at point `t` is row `5000 t + p` of the window's array, whatever the array holds. -/
theorem rows1 (X : S100000x128.Idx → EReal) (t : Fin cfg0.N) (p : Fin 5000) (k : Fin 128) (r : Fin 100000)
    (hr : r.val = 5000 * t.val + p.val) :
    ((cfg0.win 1).blk t).view.read (Elt Ideal) X (ix2 p k) = X (ix2 r k) := by
  obtain ⟨-, -, e0, e1, -⟩ := idx_facts t
  rw [View.read_apply]
  show X _ = X _
  refine congrArg X (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Row `p` of the aggregated edge block at point `t` is row `5000 t + p` of the aggregated edge array. -/
theorem iblk1_apply (c : Dev nD) (t : Fin cfg0.N) (p : Fin 5000) (k : Fin 128) (r : Fin 100000) (hr : r.val = 5000 * t.val + p.val) :
    (iblk m c 1 t : Vec Ideal S5000x128 .f32) (ix2 p k) = A1 m c (ix2 r k) := by
  unfold iblk
  exact rows1 (V m c (Pipeline.arrRef spec0 1)) t p k r hr

/-- Window 2's one block is its whole array, at every point. -/
theorem iblk2_eq (c : Dev nD) (t : Fin cfg0.N) : (iblk m c 2 t : Vec Ideal S128x128 .bf16) = A2 m c := by
  obtain ⟨⟨e0, e1⟩, -⟩ := idx_const t
  funext x
  unfold iblk
  rw [View.read_apply]
  show V m c main_v6 _ = V m c main_v6 x
  refine congrArg (V m c main_v6 : S128x128.Idx → EReal) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Window 3's one block is its whole array, at every point. -/
theorem iblk3_eq (c : Dev nD) (t : Fin cfg0.N) : (iblk m c 3 t : Vec Ideal S128x128 .bf16) = A3 m c := by
  obtain ⟨-, ⟨e0, e1⟩, -⟩ := idx_const t
  funext x
  unfold iblk
  rw [View.read_apply]
  show V m c main_v8 _ = V m c main_v8 x
  refine congrArg (V m c main_v8 : S128x128.Idx → EReal) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- Window 4's one block is its whole array, at every point. -/
theorem iblk4_eq (c : Dev nD) (t : Fin cfg0.N) : (iblk m c 4 t : Vec Ideal S1x128 .f32) = A4 m c := by
  obtain ⟨-, -, ⟨e0, e1⟩, -⟩ := idx_const t
  funext x
  unfold iblk
  rw [View.read_apply]
  show V m c main_v11 _ = V m c main_v11 x
  refine congrArg (V m c main_v11 : S1x128.Idx → EReal) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- Window 5's one block is its whole array, at every point. -/
theorem iblk5_eq (c : Dev nD) (t : Fin cfg0.N) : (iblk m c 5 t : Vec Ideal S128x128 .bf16) = A5 m c := by
  obtain ⟨-, -, -, ⟨e0, e1⟩, -⟩ := idx_const t
  funext x
  unfold iblk
  rw [View.read_apply]
  show V m c main_v9 _ = V m c main_v9 x
  refine congrArg (V m c main_v9 : S128x128.Idx → EReal) (funext fun a => Fin.ext ?_)
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- Window 6's one block is its whole array, at every point. -/
theorem iblk6_eq (c : Dev nD) (t : Fin cfg0.N) : (iblk m c 6 t : Vec Ideal S1x128 .f32) = A6 m c := by
  obtain ⟨-, -, -, -, ⟨e0, e1⟩, -⟩ := idx_const t
  funext x
  unfold iblk
  rw [View.read_apply]
  show V m c main_v12 _ = V m c main_v12 x
  refine congrArg (V m c main_v12 : S1x128.Idx → EReal) (funext fun a => Fin.ext ?_)
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- Window 7's one block is its whole array, at every point. -/
theorem iblk7_eq (c : Dev nD) (t : Fin cfg0.N) : (iblk m c 7 t : Vec Ideal S128x128 .bf16) = A7 m c := by
  obtain ⟨-, -, -, -, -, ⟨e0, e1⟩, -⟩ := idx_const t
  funext x
  unfold iblk
  rw [View.read_apply]
  show V m c main_v10 _ = V m c main_v10 x
  refine congrArg (V m c main_v10 : S128x128.Idx → EReal) (funext fun a => Fin.ext ?_)
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-- Window 8's one block is its whole array, at every point. -/
theorem iblk8_eq (c : Dev nD) (t : Fin cfg0.N) : (iblk m c 8 t : Vec Ideal S1x128 .f32) = A8 m c := by
  obtain ⟨-, -, -, -, -, -, ⟨e0, e1⟩, -⟩ := idx_const t
  funext x
  unfold iblk
  rw [View.read_apply]
  show V m c main_v13 _ = V m c main_v13 x
  refine congrArg (V m c main_v13 : S1x128.Idx → EReal) (funext fun a => Fin.ext ?_)
  match a with
  | ⟨0, _⟩ => show win0_8.index t (0 : Fin 2) * 1 + 1 * (x 0).val = (x 0).val; rw [e0]; omega
  | ⟨1, _⟩ => show win0_8.index t (1 : Fin 2) * 128 + 1 * (x 1).val = (x 1).val; rw [e1]; omega

/-- Window 9's one block is its whole array, at every point. -/
theorem iblk9_eq (c : Dev nD) (t : Fin cfg0.N) : (iblk m c 9 t : Vec Ideal S1x128 .f32) = A9 m c := by
  obtain ⟨-, -, -, -, -, -, -, ⟨e0, e1⟩, -⟩ := idx_const t
  funext x
  unfold iblk
  rw [View.read_apply]
  show V m c main_v14 _ = V m c main_v14 x
  refine congrArg (V m c main_v14 : S1x128.Idx → EReal) (funext fun a => Fin.ext ?_)
  match a with
  | ⟨0, _⟩ => show win0_9.index t (0 : Fin 2) * 1 + 1 * (x 0).val = (x 0).val; rw [e0]; omega
  | ⟨1, _⟩ => show win0_9.index t (1 : Fin 2) * 128 + 1 * (x 1).val = (x 1).val; rw [e1]; omega

/-- Window 10's one block is its whole array, at every point. -/
theorem iblk10_eq (c : Dev nD) (t : Fin cfg0.N) : (iblk m c 10 t : Vec Ideal S1x128 .f32) = A10 m c := by
  obtain ⟨-, -, -, -, -, -, -, -, ⟨e0, e1⟩⟩ := idx_const t
  funext x
  unfold iblk
  rw [View.read_apply]
  show V m c main_v15 _ = V m c main_v15 x
  refine congrArg (V m c main_v15 : S1x128.Idx → EReal) (funext fun a => Fin.ext ?_)
  match a with
  | ⟨0, _⟩ => show win0_10.index t (0 : Fin 2) * 1 + 1 * (x 0).val = (x 0).val; rw [e0]; omega
  | ⟨1, _⟩ => show win0_10.index t (1 : Fin 2) * 128 + 1 * (x 1).val = (x 1).val; rw [e1]; omega

/-! ## The result as one function of the arrays -/

/-- The result array as one function of the arrays the region finds: at node `i 0`, feature `i 1`, the update of
    that node's row and aggregated edge row. -/
def G (B0 B1 : S100000x128.Idx → EReal) (B2 B3 : S128x128.Idx → EReal) (B4 : S1x128.Idx → EReal) (B5 : S128x128.Idx → EReal)
    (B6 : S1x128.Idx → EReal) (B7 : S128x128.Idx → EReal) (B8 B9 B10 : S1x128.Idx → EReal) : S100000x128.Idx → EReal :=
  fun i => nodeRow (rowOf B0 (i 0)) (rowOf B1 (i 0)) (matOf B2) (matOf B3) (vecOf B4) (matOf B5) (vecOf B6) (matOf B7)
    (vecOf B8) (vecOf B9) (vecOf B10) (i 1)

/-- The body's block is `G` on the block's rows: stated over arbitrary loaded values whose two row blocks are rows
    `5000 T + p` of two arrays. -/
theorem block_eq (P0 P1 : Vec Ideal S5000x128 .f32) (P2 P3 : Vec Ideal S128x128 .bf16) (P4 : Vec Ideal S1x128 .f32)
    (P5 : Vec Ideal S128x128 .bf16) (P6 : Vec Ideal S1x128 .f32) (P7 : Vec Ideal S128x128 .bf16)
    (P8 P9 P10 : Vec Ideal S1x128 .f32) (B0 B1 : S100000x128.Idx → EReal) (T : ℕ)
    (h0 : ∀ (p : Fin 5000) (k : Fin 128) (r : Fin 100000), r.val = 5000 * T + p.val → P0 (ix2 p k) = B0 (ix2 r k))
    (h1 : ∀ (p : Fin 5000) (k : Fin 128) (r : Fin 100000), r.val = 5000 * T + p.val → P1 (ix2 p k) = B1 (ix2 r k))
    (y : S5000x128.Idx) (i : S100000x128.Idx) (hi0 : (i 0).val = 5000 * T + (y 0).val) (hi1 : (i 1).val = (y 1).val) :
    k0_pay1 (k0_pay2 P0 P1 P2 P3 P4 P5 P6 P7) (k0_pay3 P8) P9 P10 y = G B0 B1 P2 P3 P4 P5 P6 P7 P8 P9 P10 i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  obtain rfl : j = q := Fin.ext hi1
  rw [RowValue.payload_apply]
  have e0 : rowOf P0 p = rowOf B0 r := funext fun k => h0 p k r hi0
  have e1 : rowOf P1 p = rowOf B1 r := funext fun k => h1 p k r hi0
  rw [e0, e1]
  rfl

end Cert.KernelIdeal.ArrayValue

end
-- ==== Proof.KernelArray.lean ====
/-
  From the blocks the grid points write to the whole result array.

  Point `t` of the 20 writes its 5000 × 128 block back to rows `5000 t … 5000 t + 4999` of the result, and that block
  is the restriction to those rows of the function `G` of the arrays (module KernelBlocks).  The 20 row ranges cover all
  100000 rows, so after the run the result array is `G`.
-/
import proofs.«157998_j38345468018711_2_alg».proof.Proof.Gen.KernelIdeal.Value
import proofs.«157998_j38345468018711_2_alg».proof.Proof.KernelBlocks
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.RowMath

variable (m : (ℓ : Loc nD τ sig) → Buf (Elt Ideal) ℓ) (ρ : Dev nD → PrngReg)

/-- The body's block, written back through point `t`'s window, is block `t` of `G`: stated over arbitrary arrays and
    loaded values, the two row blocks being rows `5000 t + p` of the first two arrays. -/
theorem written_eq (X0 X1 : S100000x128.Idx → EReal) (P0 P1 : Vec Ideal S5000x128 .f32) (P2 P3 : Vec Ideal S128x128 .bf16)
    (P4 : Vec Ideal S1x128 .f32) (P5 : Vec Ideal S128x128 .bf16) (P6 : Vec Ideal S1x128 .f32) (P7 : Vec Ideal S128x128 .bf16)
    (P8 P9 P10 : Vec Ideal S1x128 .f32) (t : Fin cfg0.N)
    (h0 : ∀ (p : Fin 5000) (k : Fin 128) (r : Fin 100000), r.val = 5000 * t.val + p.val → P0 (ix2 p k) = X0 (ix2 r k))
    (h1 : ∀ (p : Fin 5000) (k : Fin 128) (r : Fin 100000), r.val = 5000 * t.val + p.val → P1 (ix2 p k) = X1 (ix2 r k)) :
    (cfg0.win 11).cut (grid0.coords t) (k0_pay1 (k0_pay2 P0 P1 P2 P3 P4 P5 P6 P7) (k0_pay3 P8) P9 P10)
      = ((cfg0.win 11).blk t).view.read (Elt Ideal) (G X0 X1 P2 P3 P4 P5 P6 P7 P8 P9 P10) := by
  obtain ⟨-, -, -, -, e0, e1⟩ := idx_facts t
  funext y
  refine block_eq P0 P1 P2 P3 P4 P5 P6 P7 P8 P9 P10 X0 X1 t.val h0 h1 y (((cfg0.win 11).blk t).view.emb y) ?_ ?_
  · show win0_11.index t (0 : Fin 2) * 5000 + 1 * (y 0).val = 5000 * t.val + (y 0).val
    rw [e0]; omega
  · show win0_11.index t (1 : Fin 2) * 128 + 1 * (y 1).val = (y 1).val
    rw [e1]; omega

/-- WHAT POINT `t` WRITES BACK is block `t` of `G` of the arrays as the region finds them. -/
theorem flushed_eq (c : Dev nD) (t : Fin cfg0.N) :
    (dats m 0 c).flushed 11 t = ((cfg0.win 11).blk t).view.read (Elt Ideal)
      (G (A0 m c) (A1 m c) (A2 m c) (A3 m c) (A4 m c) (A5 m c) (A6 m c) (A7 m c) (A8 m c) (A9 m c) (A10 m c)) := by
  rw [flushed11]
  unfold out0_11
  rw [View.canon_unit_zero hz]
  simp only [View.ld_unit_zero (S := S5000x128) hz, View.ld_unit_zero (S := S128x128) hz, View.ld_unit_zero (S := S1x128) hz]
  rw [iblk2_eq m c t, iblk3_eq m c t, iblk4_eq m c t, iblk5_eq m c t, iblk6_eq m c t, iblk7_eq m c t, iblk8_eq m c t,
    iblk9_eq m c t, iblk10_eq m c t]
  exact written_eq (A0 m c) (A1 m c) (iblk m c 0 t) (iblk m c 1 t) (A2 m c) (A3 m c) (A4 m c) (A5 m c) (A6 m c) (A7 m c)
    (A8 m c) (A9 m c) (A10 m c) t (fun p k r hr => iblk0_apply m c t p k r hr) (fun p k r hr => iblk1_apply m c t p k r hr)

/-- An index of the result array is in point `t`'s block iff each coordinate is in the block's range on its axis. -/
theorem mem_blk (t : Fin cfg0.N) (i : S100000x128.Idx) :
    i ∈ ((cfg0.win 11).blk t).view.set ↔ ∀ a : Fin 2, win0_11.index t a * S5000x128.size a ≤ (i a).val
      ∧ (i a).val < win0_11.index t a * S5000x128.size a + S5000x128.size a := by
  show i ∈ ((View.whole main_v16).slice (win0_11.rect t)).set ↔ _
  rw [View.set_slice_whole, Rect.mem_set_unit]
  exact Iff.rfl

/-- Every index of the result array is in some point's block: row `r` in the block of point `r / 5000`. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  obtain ⟨t, ht⟩ := idx_onto ⟨(i 0).val / 5000, by omega⟩
  have q0 : win0_11.index t (0 : Fin 2) = (i 0).val / 5000 := congrFun ht 0
  have q1 : win0_11.index t (1 : Fin 2) = 0 := congrFun ht 1
  refine ⟨t, flush0_11 t, ?_⟩
  rw [mem_blk]
  intro a
  match a with
  | ⟨0, _⟩ =>
    show win0_11.index t (0 : Fin 2) * 5000 ≤ (i 0).val ∧ (i 0).val < win0_11.index t (0 : Fin 2) * 5000 + 5000
    omega
  | ⟨1, _⟩ =>
    show win0_11.index t (1 : Fin 2) * 128 ≤ (i 1).val ∧ (i 1).val < win0_11.index t (1 : Fin 2) * 128 + 128
    omega

/-- THE RESULT ARRAY after the run is `G` of the arrays as the region finds them. -/
theorem final (c : Dev nD) : (dats m 0 c).arrAt 11 cfg0.N
    = G (A0 m c) (A1 m c) (A2 m c) (A3 m c) (A4 m c) (A5 m c) (A6 m c) (A7 m c) (A8 m c) (A9 m c) (A10 m c) :=
  (dats m 0 c).arrAt_eq_of_cover 11 _ (fun t _ => flushed_eq m c t) cover

end Cert.KernelIdeal.ArrayValue

end
-- ==== Proof.KernelHost.lean ====
/-
  The arrays the region finds, as the host operations before it left them, read at an index.

  Before the region the host slices the first weight in its upper and lower 128 rows and narrows the four weights to
  bf16 (the identity on the extended reals), turns each length-128 bias, gain and shift into a 1 × 128 row, and
  scatter-adds the edge rows onto their target nodes.  So, entry by entry: the two halves of the first weight are rows
  `k` and `128 + k` of the argument, the other weights and the rows are the arguments' own entries, the node array is
  the argument untouched, and the aggregated edge array is the scatter-add of the arguments.  With these the function
  `G` of the region's arrays becomes a function of the program's arguments alone.
-/
import proofs.«157998_j38345468018711_2_alg».proof.Proof.KernelArray
import Idealize.ShloMosaic.Lib.StableHlo.Run

noncomputable section

open Idealize.ShloMosaic Idealize.ShloMosaic.TcCoe Idealize.SL.Sem Idealize.ShloMosaic.StableHlo

namespace Cert.KernelIdeal.ArrayValue

open Cert.KernelIdeal Cert.KernelIdeal.Gen Cert.KernelIdeal.Value Idealize.ShloMosaic.ValueIdx Cert.RowMath

variable (m : (ℓ : Loc nD τ sig) → Buf (Elt Ideal) ℓ) (ρ : Dev nD → PrngReg)

/-- The aggregated edge array: every edge's row added onto the row of its target node (row 1 of the edge index
    array), starting from zeros. -/
def aggr (c : Dev nD) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] (m ((c : Thread nD τ).loc main_arg2)) slices_S2x1600000_S1x1600000_1_0)
        shapeCasts_S1x1600000_S1600000))
    (m ((c : Thread nD τ).loc main_arg1))

theorem A0_eq (c : Dev nD) : A0 m c = (m ((c : Thread nD τ).loc main_arg0)) := V_main_arg0 m c

theorem A1_eq (c : Dev nD) : A1 m c = aggr m c := by
  unfold aggr
  dsimp only [A1, Gen.V, Gen.hostOps0]
  after_results <;> rfl

theorem A2_eq (c : Dev nD) : A2 m c = truncf (F := Ideal) .bf16 (extractStridedSlice S128x128 ![0, 0] (m ((c : Thread nD τ).loc main_arg3)) slices_S256x128_S128x128_0_0) bitsLt_bf16_f32 := by
  dsimp only [A2, Gen.V, Gen.hostOps0]
  after_results <;> rfl

theorem A3_eq (c : Dev nD) : A3 m c = truncf (F := Ideal) .bf16 (extractStridedSlice S128x128 ![128, 0] (m ((c : Thread nD τ).loc main_arg3)) slices_S256x128_S128x128_128_0) bitsLt_bf16_f32 := by
  dsimp only [A3, Gen.V, Gen.hostOps0]
  after_results <;> rfl

theorem A5_eq (c : Dev nD) : A5 m c = truncf (F := Ideal) .bf16 (m ((c : Thread nD τ).loc main_arg5)) bitsLt_bf16_f32 := by
  dsimp only [A5, Gen.V, Gen.hostOps0]
  after_results <;> rfl

theorem A7_eq (c : Dev nD) : A7 m c = truncf (F := Ideal) .bf16 (m ((c : Thread nD τ).loc main_arg7)) bitsLt_bf16_f32 := by
  dsimp only [A7, Gen.V, Gen.hostOps0]
  after_results <;> rfl

theorem A4_eq (c : Dev nD) : A4 m c = broadcastInDim S1x128 ![1] bcast_S128_S1x128_1 (m ((c : Thread nD τ).loc main_arg4)) := by
  dsimp only [A4, Gen.V, Gen.hostOps0]
  after_results <;> rfl

theorem A6_eq (c : Dev nD) : A6 m c = broadcastInDim S1x128 ![1] bcast_S128_S1x128_1 (m ((c : Thread nD τ).loc main_arg6)) := by
  dsimp only [A6, Gen.V, Gen.hostOps0]
  after_results <;> rfl

theorem A8_eq (c : Dev nD) : A8 m c = broadcastInDim S1x128 ![1] bcast_S128_S1x128_1 (m ((c : Thread nD τ).loc main_arg8)) := by
  dsimp only [A8, Gen.V, Gen.hostOps0]
  after_results <;> rfl

theorem A9_eq (c : Dev nD) : A9 m c = broadcastInDim S1x128 ![1] bcast_S128_S1x128_1 (m ((c : Thread nD τ).loc main_arg9)) := by
  dsimp only [A9, Gen.V, Gen.hostOps0]
  after_results <;> rfl

theorem A10_eq (c : Dev nD) : A10 m c = broadcastInDim S1x128 ![1] bcast_S128_S1x128_1 (m ((c : Thread nD τ).loc main_arg10)) := by
  dsimp only [A10, Gen.V, Gen.hostOps0]
  after_results <;> rfl

/-! ## Entry by entry -/

/-- The upper-half slice of the first weight, narrowed, is rows `0 … 127` of the argument. -/
theorem mat2 (c : Dev nD) : matOf (A2 m c) = matLo (m ((c : Thread nD τ).loc main_arg3)) := by
  rw [A2_eq]
  funext k j
  show extractStridedSlice S128x128 ![0, 0] (m ((c : Thread nD τ).loc main_arg3)) slices_S256x128_S128x128_0_0 (ix2 k j) = _
  exact extractStridedSlice_apply ![0, 0] _ slices_S256x128_S128x128_0_0 (ix2 k j) (ix2 (lo k) j)
    (fun a => by match a with | ⟨0, _⟩ => show k.val = 0 + k.val; omega | ⟨1, _⟩ => show j.val = 0 + j.val; omega)

/-- The lower-half slice of the first weight, narrowed, is rows `128 … 255` of the argument. -/
theorem mat3 (c : Dev nD) : matOf (A3 m c) = matHi (m ((c : Thread nD τ).loc main_arg3)) := by
  rw [A3_eq]
  funext k j
  show extractStridedSlice S128x128 ![128, 0] (m ((c : Thread nD τ).loc main_arg3)) slices_S256x128_S128x128_128_0 (ix2 k j) = _
  exact extractStridedSlice_apply ![128, 0] _ slices_S256x128_S128x128_128_0 (ix2 k j) (ix2 (hi k) j)
    (fun a => by match a with | ⟨0, _⟩ => show 128 + k.val = 128 + k.val; rfl | ⟨1, _⟩ => show j.val = 0 + j.val; omega)

theorem mat5 (c : Dev nD) : matOf (A5 m c) = matOf (m ((c : Thread nD τ).loc main_arg5)) := by rw [A5_eq]; rfl

theorem mat7 (c : Dev nD) : matOf (A7 m c) = matOf (m ((c : Thread nD τ).loc main_arg7)) := by rw [A7_eq]; rfl

/-- A length-128 array made a 1 × 128 row reads its own entries. -/
theorem row_bcast (x : S128.Idx → EReal) : vecOf (broadcastInDim S1x128 ![1] bcast_S128_S1x128_1 x) = rowOf1 x := by
  funext j
  exact broadcastInDim_apply _ bcast_S128_S1x128_1 x (ix2 (0 : Fin 1) j) (ix1 j)
    (fun a => by match a with | ⟨0, _⟩ => show j.val = if (128 : Nat) = 1 then 0 else j.val; rw [if_neg (by decide)])

/-- THE RESULT ARRAY as a function of the program's arguments: at node `i 0`, feature `i 1`, the update of the node's
    row and its aggregated edge row under the argument weights. -/
def result (c : Dev nD) : S100000x128.Idx → EReal := fun i =>
  nodeRow (rowOf (m ((c : Thread nD τ).loc main_arg0)) (i 0)) (rowOf (aggr m c) (i 0)) (matLo (m ((c : Thread nD τ).loc main_arg3))) (matHi (m ((c : Thread nD τ).loc main_arg3))) (rowOf1 (m ((c : Thread nD τ).loc main_arg4)))
    (matOf (m ((c : Thread nD τ).loc main_arg5))) (rowOf1 (m ((c : Thread nD τ).loc main_arg6))) (matOf (m ((c : Thread nD τ).loc main_arg7))) (rowOf1 (m ((c : Thread nD τ).loc main_arg8))) (rowOf1 (m ((c : Thread nD τ).loc main_arg9))) (rowOf1 (m ((c : Thread nD τ).loc main_arg10))) (i 1)

theorem G_eq_result (c : Dev nD) :
    G (A0 m c) (A1 m c) (A2 m c) (A3 m c) (A4 m c) (A5 m c) (A6 m c) (A7 m c) (A8 m c) (A9 m c) (A10 m c) = result m c := by
  funext i
  unfold G result
  rw [mat2, mat3, mat5, mat7, A0_eq, A1_eq, A4_eq, A6_eq, A8_eq, A9_eq, A10_eq, row_bcast, row_bcast, row_bcast, row_bcast,
    row_bcast]

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (G_eq_result m c)), (h c).2⟩)
    (Value.run_blocks m ρ)

end Cert.KernelIdeal.ArrayValue

end
-- ==== Proof.RefRow.lean ====
/-
  What the reference computes for one node.

  The reference concatenates each node's row with its aggregated edge row (256 features), multiplies by the whole
  256 × 128 first weight, and goes on through the two further layers and the layer normalisation, all as whole-array
  host operations over the 100000 nodes.  Read at node `r`, feature `j`, each stage is the corresponding stage of
  `RowMath` on node `r`'s rows: the concatenated product splits into the node row through the weight's upper half
  plus the edge row through its lower half (a sum over 256 coordinates is the sum over its two halves), a bias
  broadcast over the nodes reads its feature, a sum along the feature axis from the zero word is the row's sum, and a
  per-node column broadcast along the features reads the node's entry.
-/
import proofs.«157998_j38345468018711_2_alg».proof.Proof.Gen.ReferenceIdeal.Read
import proofs.«157998_j38345468018711_2_alg».proof.Proof.RowMath
import Idealize.ShloMosaic.Lib.Pipeline.Value
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx Cert.RowMath

variable (x0 : (⟨S100000x128, .f32⟩ : BufTy).Contents (Elt Ideal)) (x1 : (⟨S1600000x128, .f32⟩ : BufTy).Contents (Elt Ideal))
  (x2 : (⟨S2x1600000, .i32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 x9 x10 : (⟨S128, .f32⟩ : BufTy).Contents (Elt Ideal))

/-! ## The stages' index maps at a node and a feature -/

theorem lidx6 (r : Fin 100000) (j : Fin 128) (k : Fin 256) : lidx_main_v6 (ix2 r j) k = ix2 r k := funext fun a => Fin.ext (by match a with | ⟨0, _⟩ => rfl | ⟨1, _⟩ => rfl)
theorem ridx6 (r : Fin 100000) (j : Fin 128) (k : Fin 256) : ridx_main_v6 (ix2 r j) k = ix2 k j := funext fun a => Fin.ext (by match a with | ⟨0, _⟩ => rfl | ⟨1, _⟩ => rfl)
theorem lidx11 (r : Fin 100000) (j : Fin 128) (k : Fin 128) : lidx_main_v11 (ix2 r j) k = ix2 r k := funext fun a => Fin.ext (by match a with | ⟨0, _⟩ => rfl | ⟨1, _⟩ => rfl)
theorem ridx11 (r : Fin 100000) (j : Fin 128) (k : Fin 128) : ridx_main_v11 (ix2 r j) k = ix2 k j := funext fun a => Fin.ext (by match a with | ⟨0, _⟩ => rfl | ⟨1, _⟩ => rfl)
theorem lidx16 (r : Fin 100000) (j : Fin 128) (k : Fin 128) : lidx_main_v16 (ix2 r j) k = ix2 r k := funext fun a => Fin.ext (by match a with | ⟨0, _⟩ => rfl | ⟨1, _⟩ => rfl)
theorem ridx16 (r : Fin 100000) (j : Fin 128) (k : Fin 128) : ridx_main_v16 (ix2 r j) k = ix2 k j := funext fun a => Fin.ext (by match a with | ⟨0, _⟩ => rfl | ⟨1, _⟩ => rfl)
theorem idx20 (r : Fin 100000) (k : Fin 128) : idx_main_v20 (ix1 r) k = ix2 r k := funext fun a => Fin.ext (by match a with | ⟨0, _⟩ => rfl | ⟨1, _⟩ => rfl)
theorem idx27 (r : Fin 100000) (k : Fin 128) : idx_main_v27 (ix1 r) k = ix2 r k := funext fun a => Fin.ext (by match a with | ⟨0, _⟩ => rfl | ⟨1, _⟩ => rfl)
theorem idx21 (r : Fin 100000) (u : Fin 1) : idx_main_v21 (ix2 r u) = ix1 r := funext fun a => Fin.ext (by match a with | ⟨0, _⟩ => rfl)
theorem idx28 (r : Fin 100000) (u : Fin 1) : idx_main_v28 (ix2 r u) = ix1 r := funext fun a => Fin.ext (by match a with | ⟨0, _⟩ => rfl)
theorem idx24 (r : Fin 100000) (j : Fin 128) : idx_main_v24 (ix2 r j) = ix2 r (0 : Fin 1) := funext fun a => Fin.ext (by match a with | ⟨0, _⟩ => rfl | ⟨1, _⟩ => rfl)
theorem idx31 (r : Fin 100000) (j : Fin 128) : idx_main_v31 (ix2 r j) = ix2 r (0 : Fin 1) := funext fun a => Fin.ext (by match a with | ⟨0, _⟩ => rfl | ⟨1, _⟩ => rfl)
theorem idx36 (r : Fin 100000) (j : Fin 128) : idx_main_v36 (ix2 r j) = ix2 r (0 : Fin 1) := funext fun a => Fin.ext (by match a with | ⟨0, _⟩ => rfl | ⟨1, _⟩ => rfl)

/-! ## The biases, gain and shift: a length-128 array made a row and broadcast over the nodes -/

theorem v8_row (r : Fin 100000) (j : Fin 128) : val_main_v8 (F := Ideal) x4 (ix2 r j) = rowOf1 x4 j := by
  rw [val_main_v8_apply, val_main_v7_apply]
  exact congrArg x4 (funext fun a => Fin.ext (by match a with | ⟨0, _⟩ => rfl))

theorem v13_row (r : Fin 100000) (j : Fin 128) : val_main_v13 (F := Ideal) x6 (ix2 r j) = rowOf1 x6 j := by
  rw [val_main_v13_apply, val_main_v12_apply]
  exact congrArg x6 (funext fun a => Fin.ext (by match a with | ⟨0, _⟩ => rfl))

theorem v18_row (r : Fin 100000) (j : Fin 128) : val_main_v18 (F := Ideal) x8 (ix2 r j) = rowOf1 x8 j := by
  rw [val_main_v18_apply, val_main_v17_apply]
  exact congrArg x8 (funext fun a => Fin.ext (by match a with | ⟨0, _⟩ => rfl))

theorem v39_row (r : Fin 100000) (j : Fin 128) : val_main_v39 (F := Ideal) x9 (ix2 r j) = rowOf1 x9 j := by
  rw [val_main_v39_apply, val_main_v38_apply]
  exact congrArg x9 (funext fun a => Fin.ext (by match a with | ⟨0, _⟩ => rfl))

theorem v42_row (r : Fin 100000) (j : Fin 128) : val_main_v42 (F := Ideal) x10 (ix2 r j) = rowOf1 x10 j := by
  rw [val_main_v42_apply, val_main_v41_apply]
  exact congrArg x10 (funext fun a => Fin.ext (by match a with | ⟨0, _⟩ => rfl))

/-! ## The concatenation, read in each half -/

/-- A coordinate in the first half of the concatenated features reads the node's own row. -/
theorem cat_lo (r : Fin 100000) (k : Fin 128) : val_main_v5 (F := Ideal) x0 x1 x2 (ix2 r (lo k)) = x0 (ix2 r k) := by
  unfold val_main_v5
  exact concatenate_pair_apply_left (1 : Fin 2) x0 (val_main_v4 (F := Ideal) x1 x2) _ (ix2 r (lo k)) rfl (ix2 r k)
    (fun b => by match b with | ⟨0, _⟩ => rfl | ⟨1, _⟩ => rfl)

/-- A coordinate in the second half reads the aggregated edge row. -/
theorem cat_hi (r : Fin 100000) (k : Fin 128) :
    val_main_v5 (F := Ideal) x0 x1 x2 (ix2 r (hi k)) = val_main_v4 (F := Ideal) x1 x2 (ix2 r k) := by
  unfold val_main_v5
  exact concatenate_pair_apply_right (1 : Fin 2) x0 (val_main_v4 (F := Ideal) x1 x2) _ (ix2 r (hi k)) rfl rfl (ix2 r k)
    (fun b hb => by match b with | ⟨0, _⟩ => rfl | ⟨1, _⟩ => exact absurd rfl hb)
    (by show k.val + 128 = 128 + k.val; omega)

/-! ## The three layers -/

/-- The first product: the sum over the 256 concatenated features is the node row through the weight's upper half plus
    the edge row through its lower half. -/
theorem v6_row (r : Fin 100000) (j : Fin 128) :
    val_main_v6 (F := Ideal) x0 x1 x2 x3 (ix2 r j)
      = dotRow (rowOf x0 r) (matLo x3) j + dotRow (rowOf (val_main_v4 (F := Ideal) x1 x2) r) (matHi x3) j := by
  rw [val_main_v6_apply, sum_halves]
  unfold dotRow
  refine congrArg₂ (· + ·) (Finset.sum_congr rfl fun k _ => ?_) (Finset.sum_congr rfl fun k _ => ?_)
  · rw [lidx6, ridx6, cat_lo]; rfl
  · rw [lidx6, ridx6, cat_hi]; rfl

/-- The first hidden row of node `r`. -/
abbrev h0 (r : Fin 100000) : Row :=
  hidden0 (rowOf x0 r) (rowOf (val_main_v4 (F := Ideal) x1 x2) r) (matLo x3) (matHi x3) (rowOf1 x4)

theorem v10_row (r : Fin 100000) (j : Fin 128) : val_main_v10 (F := Ideal) x0 x1 x2 x3 x4 (ix2 r j) = h0 x0 x1 x2 x3 x4 r j := by
  rw [val_main_v10_apply, val_main_v9_apply, v6_row, v8_row, val_main_call0_v0_apply, val_main_call0_cst_apply]
  rfl

/-- The second hidden row of node `r`. -/
abbrev h1 (r : Fin 100000) : Row := hidden1 (h0 x0 x1 x2 x3 x4 r) (matOf x5) (rowOf1 x6)

theorem v15_row (r : Fin 100000) (j : Fin 128) : val_main_v15 (F := Ideal) x0 x1 x2 x3 x4 x5 x6 (ix2 r j) = h1 x0 x1 x2 x3 x4 x5 x6 r j := by
  rw [val_main_v15_apply, val_main_v14_apply, val_main_v11_apply, v13_row, val_main_call1_v0_apply, val_main_call1_cst_apply]
  simp only [Ideal.addf_def, Ideal.maximumf_def, Ideal.ofBits_def]
  unfold h1 hidden1 relu dotRow
  refine congrArg (fun z => max (z + _) _) (Finset.sum_congr rfl fun k _ => ?_)
  rw [lidx11, ridx11, v10_row]
  rfl

/-- The output row of node `r` before its normalisation. -/
abbrev oR (r : Fin 100000) : Row := outRow (h1 x0 x1 x2 x3 x4 x5 x6 r) (matOf x7) (rowOf1 x8)

theorem v19_row (r : Fin 100000) (j : Fin 128) : val_main_v19 (F := Ideal) x0 x1 x2 x3 x4 x5 x6 x7 x8 (ix2 r j) = oR x0 x1 x2 x3 x4 x5 x6 x7 x8 r j := by
  rw [val_main_v19_apply, val_main_v16_apply, v18_row]
  simp only [Ideal.addf_def]
  unfold oR outRow dotRow
  refine congrArg (fun z => z + _) (Finset.sum_congr rfl fun k _ => ?_)
  rw [lidx16, ridx16, v15_row]
  rfl

/-! ## The normalisation -/

/-- The sum over the features, from the zero word. -/
theorem v20_row (r : Fin 100000) : val_main_v20 (F := Ideal) x0 x1 x2 x3 x4 x5 x6 x7 x8 (ix1 r) = ∑ k : Fin 128, oR x0 x1 x2 x3 x4 x5 x6 x7 x8 r k := by
  rw [val_main_v20_apply, val_main_cst_0_apply, Ideal.ofBits_def, Ideal.ofBits_zero_f32, zero_add]
  refine Finset.sum_congr rfl fun k _ => ?_
  rw [idx20, v19_row]

theorem v23_row (r : Fin 100000) (u : Fin 1) : val_main_v23 (F := Ideal) x0 x1 x2 x3 x4 x5 x6 x7 x8 (ix2 r u) = mean (oR x0 x1 x2 x3 x4 x5 x6 x7 x8 r) := by
  rw [val_main_v23_apply, val_main_v21_apply, idx21, v20_row, val_main_v22_apply, val_main_cst_1_apply]
  rfl

theorem v25_row (r : Fin 100000) (j : Fin 128) : val_main_v25 (F := Ideal) x0 x1 x2 x3 x4 x5 x6 x7 x8 (ix2 r j) = centred (oR x0 x1 x2 x3 x4 x5 x6 x7 x8 r) j := by
  rw [val_main_v25_apply, v19_row, val_main_v24_apply, idx24, v23_row]
  rfl

theorem v32_row (r : Fin 100000) (j : Fin 128) : val_main_v32 (F := Ideal) x0 x1 x2 x3 x4 x5 x6 x7 x8 (ix2 r j) = centred (oR x0 x1 x2 x3 x4 x5 x6 x7 x8 r) j := by
  rw [val_main_v32_apply, v19_row, val_main_v31_apply, idx31, v23_row]
  rfl

theorem v27_row (r : Fin 100000) :
    val_main_v27 (F := Ideal) x0 x1 x2 x3 x4 x5 x6 x7 x8 (ix1 r) = ∑ k : Fin 128, centred (oR x0 x1 x2 x3 x4 x5 x6 x7 x8 r) k * centred (oR x0 x1 x2 x3 x4 x5 x6 x7 x8 r) k := by
  rw [val_main_v27_apply, val_main_cst_2_apply, Ideal.ofBits_def, Ideal.ofBits_zero_f32, zero_add]
  refine Finset.sum_congr rfl fun k _ => ?_
  rw [idx27, val_main_v26_apply, v25_row]
  rfl

theorem v30_row (r : Fin 100000) (u : Fin 1) : val_main_v30 (F := Ideal) x0 x1 x2 x3 x4 x5 x6 x7 x8 (ix2 r u) = variance (oR x0 x1 x2 x3 x4 x5 x6 x7 x8 r) := by
  rw [val_main_v30_apply, val_main_v28_apply, idx28, v27_row, val_main_v29_apply, val_main_cst_3_apply]
  rfl

theorem v36_row (r : Fin 100000) (j : Fin 128) :
    val_main_v36 (F := Ideal) x0 x1 x2 x3 x4 x5 x6 x7 x8 (ix2 r j) = Ideal.rsqrt (variance (oR x0 x1 x2 x3 x4 x5 x6 x7 x8 r) + Ideal.ofBits .f32 0x3727C5AC#32) := by
  rw [val_main_v36_apply, idx36, val_main_v35_apply, val_main_v34_apply, v30_row, val_main_v33_apply, val_main_cst_4_apply]
  rfl

/-- THE REFERENCE'S RESULT at node `r`, feature `j`: `nodeRow` of the node's row and its aggregated edge row. -/
theorem result_row (r : Fin 100000) (j : Fin 128) :
    val_main_v43 (F := Ideal) x0 x1 x2 x3 x4 x5 x6 x7 x8 x9 x10 (ix2 r j)
      = nodeRow (rowOf x0 r) (rowOf (val_main_v4 (F := Ideal) x1 x2) r) (matLo x3) (matHi x3) (rowOf1 x4) (matOf x5) (rowOf1 x6)
          (matOf x7) (rowOf1 x8) (rowOf1 x9) (rowOf1 x10) j := by
  rw [val_main_v43_apply, val_main_v40_apply, val_main_v37_apply, v32_row, v36_row, v39_row, v42_row]
  rfl

end Cert.ReferenceIdeal.RowValue

end
-- ==== Proof.Bridge.lean ====
/-
  The reference's result, computed from the kernel's arguments, is the kernel's result array.

  Node by node and feature by feature both are `RowMath.nodeRow` of the node's row and of its aggregated edge row
  under the same weights (modules RefRow and KernelHost).  The aggregated edge array is the same scatter-add of the
  same arguments in both programs, so the two arrays are one function of the arguments.
-/
import proofs.«157998_j38345468018711_2_alg».proof.Proof.KernelHost
import proofs.«157998_j38345468018711_2_alg».proof.Proof.RefRow

noncomputable section

open Idealize.ShloMosaic Idealize.ShloMosaic.TcCoe Idealize.SL.Sem

namespace Cert.Bridge

open Idealize.ShloMosaic.ValueIdx Cert.RowMath

variable (m : (ℓ : Loc Cert.KernelIdeal.nD Cert.KernelIdeal.τ Cert.KernelIdeal.sig) → Buf (Elt Ideal) ℓ)

/-- The reference's scatter-add of the kernel's arguments is the kernel's aggregated edge array: the same operation of
    the same operands. -/
theorem aggr_eq (c : Dev Cert.KernelIdeal.nD) :
    Cert.ReferenceIdeal.Read.val_main_v4 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) = Cert.KernelIdeal.ArrayValue.aggr m c := rfl

/-- The reference's result term, of the kernel's arguments, is the kernel's result array. -/
theorem ref_result (c : Dev Cert.KernelIdeal.nD) :
    Cert.ReferenceIdeal.Read.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
      = Cert.KernelIdeal.ArrayValue.result m c := by
  funext i
  obtain ⟨r, j, rfl⟩ : ∃ (r : Fin 100000) (j : Fin 128), i = ix2 r j := ⟨i 0, i 1, eq_ix2 i⟩
  rw [Cert.ReferenceIdeal.RowValue.result_row, aggr_eq m c]
  rfl

end Cert.Bridge

end
-- ==== Proof.lean ====
/-
  A graph-network node update: every node's 128 features and the sum of its incoming edges' 128 features go through a
  three-layer perceptron and a layer normalisation.  The kernel aggregates the edges on the host, splits the first
  256 × 128 weight in its upper and lower halves, and runs the perceptron and the normalisation in one grid of 20
  blocks of 5000 nodes; the reference concatenates the two feature rows and multiplies by the whole first weight.

  On the extended reals the two agree node by node: the concatenated product is the sum of the two half products (a
  sum over 256 coordinates is the sum over its two halves, in any commutative monoid, so no finiteness of the inputs is
  used), the changes of float format are the identity, and every other operation is the same operation of the same
  operands.  Proof/RowMath.lean states the update of one node; Proof/KernelRow.lean reads the kernel's body at a row of
  its block, Proof/KernelBlocks.lean and Proof/KernelArray.lean assemble the 20 blocks into the result array,
  Proof/KernelHost.lean reads the host operations before the grid; Proof/RefRow.lean reads the reference at a node;
  Proof/Bridge.lean sets the two side by side.  The frames are the generated ones (the reference's is its generated
  run with the result dropped); the idealisation rewrote nothing, so `preserves` is trivial.
-/
import proofs.«157998_j38345468018711_2_alg».proof.Defs
import proofs.«157998_j38345468018711_2_alg».proof.Proof.Gen.Kernel
import proofs.«157998_j38345468018711_2_alg».proof.Proof.Gen.Kernel.Skeleton
import proofs.«157998_j38345468018711_2_alg».proof.Proof.Gen.Kernel.Launch
import proofs.«157998_j38345468018711_2_alg».proof.Proof.Gen.Kernel.Points
import proofs.«157998_j38345468018711_2_alg».proof.Proof.Gen.Kernel.Frame
import proofs.«157998_j38345468018711_2_alg».proof.Proof.Gen.KernelIdeal
import proofs.«157998_j38345468018711_2_alg».proof.Proof.Gen.KernelIdeal.Skeleton
import proofs.«157998_j38345468018711_2_alg».proof.Proof.Gen.KernelIdeal.Launch
import proofs.«157998_j38345468018711_2_alg».proof.Proof.Gen.KernelIdeal.Points
import proofs.«157998_j38345468018711_2_alg».proof.Proof.Gen.KernelIdeal.Frame
import proofs.«157998_j38345468018711_2_alg».proof.Proof.Gen.ReferenceIdeal
import proofs.«157998_j38345468018711_2_alg».proof.Proof.Gen.KernelIdeal.Value
import proofs.«157998_j38345468018711_2_alg».proof.Proof.Gen.ReferenceIdeal.Run
import proofs.«157998_j38345468018711_2_alg».proof.Proof.Gen.ReferenceIdeal.Read
import proofs.«157998_j38345468018711_2_alg».proof.Proof.Gen.Pre_finite_inputs
import proofs.«157998_j38345468018711_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: the kernel's is
    `ArrayValue.result` of its arguments, and the reference's term of the same arguments is that array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq]
  obtain ⟨a0, a1, a2, a3, a4, a5, a6, a7, a8, a9, a10⟩ := hagree c
  rw [a0, a1, a2, a3, a4, a5, a6, a7, a8, a9, a10]
  exact Cert.Bridge.ref_result m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
